-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S64x512x1024 : Shape := ⟨3, ![64, 512, 1024]⟩
abbrev S20001x512 : Shape := ⟨2, ![20001, 512]⟩
abbrev S512x1024 : Shape := ⟨2, ![512, 1024]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S20001x512 : S_.BroadcastsInDim S20001x512 (![] : Fin 0 → Fin S20001x512.rank)
  reducesTo_S20001x512_S_d0_1 : S20001x512.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : IVec S64x128 32) (main_arg1 : FVec F S64x512x1024 .f32) (main_arg2 : FVec F S20001x512 .f32) (main_arg3 : FVec F S512x1024 .f32) : IVec S_ 1 :=
  let main_v0 : FVec F S64x512x1024 .f32 := Host.absf main_arg1
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S20001x512 .f32 := Host.absf main_arg2
  let main_cst_0 : FVec F S_ .f32 := constant S_ .f32 0x7F800000#32
  let main_v5 : FVec F S20001x512 .f32 := broadcastInDim S20001x512 ![] bcast_S_S20001x512 main_cst_0
  let main_v6 : IVec S20001x512 1 := cmpf .olt main_v4 main_v5
  let main_c_1 : IVec S_ 1 := constantI S_ 1 1#1
  let main_v7 : IVec S_ 1 := (fun x v => Host.reduce IntOp.andi x v reducesTo_S20001x512_S_d0_1 h_S_) main_v6 main_c_1
  let main_v8 : IVec S_ 1 := andi main_v3 main_v7
  let main_v9 : FVec F S512x1024 .f32 := Host.absf main_arg3
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  main_v13
-- ==== Kernel.lean ====
abbrev S64x128 : Shape := ⟨2, ![64, 128]⟩
abbrev S64x512x1024 : Shape := ⟨3, ![64, 512, 1024]⟩
abbrev S20001x512 : Shape := ⟨2, ![20001, 512]⟩
abbrev S512x1024 : Shape := ⟨2, ![512, 1024]⟩
abbrev S_ : Shape := ⟨0, ![]⟩
abbrev S64x128x1 : Shape := ⟨3, ![64, 128, 1]⟩
abbrev S64x128x512 : Shape := ⟨3, ![64, 128, 512]⟩
abbrev S64x128x1536 : Shape := ⟨3, ![64, 128, 1536]⟩
abbrev S4x128x512 : Shape := ⟨3, ![4, 128, 512]⟩
abbrev S4x512x1024 : Shape := ⟨3, ![4, 512, 1024]⟩
abbrev S4x128x1536 : Shape := ⟨3, ![4, 128, 1536]⟩
abbrev S512x512 : Shape := ⟨2, ![512, 512]⟩
abbrev S4x128x1024 : Shape := ⟨3, ![4, 128, 1024]⟩
abbrev S4x128 : Shape := ⟨2, ![4, 128]⟩
abbrev S4x128x1 : Shape := ⟨3, ![4, 128, 1]⟩
abbrev S64x196608 : Shape := ⟨2, ![64, 196608]⟩

abbrev nBuf : Space → Nat
  | .hbm => 16
  | .vmem => 7
  | .smem => 0
  | _ => 0

abbrev bufTy : (tb : Table) → Fin (tcTables nBuf tb) → BufTy
  | .hbm, ⟨0, _⟩ => ⟨S64x128, .i32⟩
  | .hbm, ⟨1, _⟩ => ⟨S64x512x1024, .f32⟩
  | .hbm, ⟨2, _⟩ => ⟨S20001x512, .f32⟩
  | .hbm, ⟨3, _⟩ => ⟨S512x1024, .f32⟩
  | .hbm, ⟨4, _⟩ => ⟨S_, .i32⟩
  | .hbm, ⟨5, _⟩ => ⟨S64x128, .i32⟩
  | .hbm, ⟨6, _⟩ => ⟨S64x128, .i1⟩
  | .hbm, ⟨7, _⟩ => ⟨S_, .i32⟩
  | .hbm, ⟨8, _⟩ => ⟨S64x128, .i32⟩
  | .hbm, ⟨9, _⟩ => ⟨S64x128, .i32⟩
  | .hbm, ⟨10, _⟩ => ⟨S64x128, .i32⟩
  | .hbm, ⟨11, _⟩ => ⟨S64x128x1, .i32⟩
  | .hbm, ⟨12, _⟩ => ⟨S64x128x512, .f32⟩
  | .hbm, ⟨13, _⟩ => ⟨S512x1024, .bf16⟩
  | .hbm, ⟨14, _⟩ => ⟨S64x128x1536, .f32⟩
  | .hbm, ⟨15, _⟩ => ⟨S64x196608, .f32⟩
  | .local _ .vmem, ⟨0, _⟩ => ⟨S4x128x512, .f32⟩
  | .local _ .vmem, ⟨1, _⟩ => ⟨S4x128x512, .f32⟩
  | .local _ .vmem, ⟨2, _⟩ => ⟨S512x1024, .bf16⟩
  | .local _ .vmem, ⟨3, _⟩ => ⟨S4x512x1024, .f32⟩
  | .local _ .vmem, ⟨4, _⟩ => ⟨S4x512x1024, .f32⟩
  | .local _ .vmem, ⟨5, _⟩ => ⟨S4x128x1536, .f32⟩
  | .local _ .vmem, ⟨6, _⟩ => ⟨S4x128x1536, .f32⟩
  | _, _ => ⟨S64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bitsLt_bf16_f32 : FTy.bits .bf16 < FTy.bits .f32
  inb_S4x128x512_S4x128x512_0_0_0 : ∀ a, (![0, 0, 0] : Fin 3 → Nat) a + S4x128x512.size a ≤ S4x128x512.size a
  h_S4x128x512 : 0 < S4x128x512.numel
  shapeCasts_S4x128x512_S4x128x512 : S4x128x512.ShapeCasts S4x128x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4x512x1024_S4x512x1024_0_0_0 : ∀ a, (![0, 0, 0] : Fin 3 → Nat) a + S4x512x1024.size a ≤ S4x512x1024.size a
  h_S4x512x1024 : 0 < S4x512x1024.numel
  shapeCasts_S4x128x512_S512x512 : S4x128x512.ShapeCasts S512x512
  shapeCasts_S512x1024_S4x128x1024 : S512x1024.ShapeCasts S4x128x1024
  reduces_S4x128x512_S4x128 : S4x128x512.Reduces [2] S4x128
  shapeCasts_S4x128_S4x128x1 : S4x128.ShapeCasts S4x128x1
  broadcasts_S4x128x1_S4x128x512 : S4x128x1.Broadcasts S4x128x512
  inb_S4x128x1536_S4x128x512_0_0_0 : ∀ a, (![0, 0, 0] : Fin 3 → Nat) a + S4x128x512.size a ≤ S4x128x1536.size a
  inb_S4x128x1536_S4x128x1024_0_0_512 : ∀ a, (![0, 0, 512] : Fin 3 → Nat) a + S4x128x1024.size a ≤ S4x128x1536.size a
  h_S4x128x1024 : 0 < S4x128x1024.numel
  shapeCasts_S64x128x1536_S64x196608 : S64x128x1536.ShapeCasts S64x196608
  gather_S20001x512_S64x128x1_S64x128x512_2_0_n_n_0_2_1512_wf : GatherDims.WF S20001x512 S64x128x1 S64x128x512 [2] [0] [] [0] [] 2 ![1, 512]
  dot_S512x512_S512x1024_S512x1024_1_0_0_1_n_n_wf : DotDims.WF S512x512 S512x1024 S512x1024 [1] [0] [0] [1] [] []
  dot_S4x128x1024_S4x512x1024_S4x128x512_2_2_1_1_0_0_wf : DotDims.WF S4x128x1024 S4x512x1024 S4x128x512 [2] [2] [1] [1] [0] [0]
  dot_S4x128x512_S4x512x1024_S4x128x1024_2_1_1_2_0_0_wf : DotDims.WF S4x128x512 S4x512x1024 S4x128x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x512.size a ≤ S64x128x512.size a
  hwx0_0 : ∀ i : grid0.Coords, EltTy.bits .f32 = 32 ∨ (Rect.block (s := S64x128x512) S4x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1024.size a ≤ S64x512x1024.size a
  hwx0_2 : ∀ i : grid0.Coords, EltTy.bits .f32 = 32 ∨ (Rect.block (s := S64x512x1024) S4x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x128x1536.size a ≤ S64x128x1536.size a
  hwx0_3 : ∀ i : grid0.Coords, EltTy.bits .f32 = 32 ∨ (Rect.block (s := S64x128x1536) S4x128x1536.size (cc0_transform_3 i) (hinb0_3 i)).WholeWords (EltTy.packing .f32)

variable [Facts₀]

def gather_S20001x512_S64x128x1_S64x128x512_2_0_n_n_0_2_1512 : GatherDims S20001x512 S64x128x1 S64x128x512 where
  offsetDims := [2]
  collapsedSliceDims := [0]
  operandBatchingDims := []
  startIndicesBatchingDims := []
  startIndexMap := [0]
  indexVectorDim := 2
  sliceSizes := ![1, 512]
  wf := gather_S20001x512_S64x128x1_S64x128x512_2_0_n_n_0_2_1512_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S4x128x1024_S4x512x1024_S4x128x512_2_2_1_1_0_0 : DotDims S4x128x1024 S4x512x1024 S4x128x512 where
  lhsContracting := [2]
  rhsContracting := [2]
  lhsNonContracting := [1]
  rhsNonContracting := [1]
  lhsBatch := [0]
  rhsBatch := [0]
  wf := dot_S4x128x1024_S4x512x1024_S4x128x512_2_2_1_1_0_0_wf
def dot_S4x128x512_S4x512x1024_S4x128x1024_2_1_1_2_0_0 : DotDims S4x128x512 S4x512x1024 S4x128x1024 where
  lhsContracting := [2]
  rhsContracting := [1]
  lhsNonContracting := [1]
  rhsNonContracting := [2]
  lhsBatch := [0]
  rhsBatch := [0]
  wf := dot_S4x128x512_S4x512x1024_S4x128x1024_2_1_1_2_0_0_wf

abbrev win0_0 : Pipeline.Window sig grid0 :=
  Pipeline.Window.ofSpec (Memref.whole main_v6) S4x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4x128x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x128 : Shape := ⟨2, ![64, 128]⟩
abbrev S64x512x1024 : Shape := ⟨3, ![64, 512, 1024]⟩
abbrev S20001x512 : Shape := ⟨2, ![20001, 512]⟩
abbrev S512x1024 : Shape := ⟨2, ![512, 1024]⟩
abbrev S_ : Shape := ⟨0, ![]⟩
abbrev S64x128x1 : Shape := ⟨3, ![64, 128, 1]⟩
abbrev S64x128x512 : Shape := ⟨3, ![64, 128, 512]⟩
abbrev S64x128x1024 : Shape := ⟨3, ![64, 128, 1024]⟩
abbrev S64x128x1536 : Shape := ⟨3, ![64, 128, 1536]⟩
abbrev S64x196608 : Shape := ⟨2, ![64, 196608]⟩

abbrev nBuf : Space → Nat
  | .hbm => 32
  | .vmem => 0
  | .smem => 0
  | _ => 0

abbrev bufTy : (tb : Table) → Fin (tcTables nBuf tb) → BufTy
  | .hbm, ⟨0, _⟩ => ⟨S64x128, .i32⟩
  | .hbm, ⟨1, _⟩ => ⟨S64x512x1024, .f32⟩
  | .hbm, ⟨2, _⟩ => ⟨S20001x512, .f32⟩
  | .hbm, ⟨3, _⟩ => ⟨S512x1024, .f32⟩
  | .hbm, ⟨4, _⟩ => ⟨S_, .i32⟩
  | .hbm, ⟨5, _⟩ => ⟨S64x128, .i32⟩
  | .hbm, ⟨6, _⟩ => ⟨S64x128, .i1⟩
  | .hbm, ⟨7, _⟩ => ⟨S_, .i32⟩
  | .hbm, ⟨8, _⟩ => ⟨S64x128, .i32⟩
  | .hbm, ⟨9, _⟩ => ⟨S64x128, .i32⟩
  | .hbm, ⟨10, _⟩ => ⟨S64x128, .i32⟩
  | .hbm, ⟨11, _⟩ => ⟨S64x128x1, .i32⟩
  | .hbm, ⟨12, _⟩ => ⟨S64x128x512, .f32⟩
  | .hbm, ⟨13, _⟩ => ⟨S64x128x1024, .f32⟩
  | .hbm, ⟨14, _⟩ => ⟨S64x128x512, .f32⟩
  | .hbm, ⟨15, _⟩ => ⟨S_, .f32⟩
  | .hbm, ⟨16, _⟩ => ⟨S64x128, .f32⟩
  | .hbm, ⟨17, _⟩ => ⟨S_, .f32⟩
  | .hbm, ⟨18, _⟩ => ⟨S64x128, .f32⟩
  | .hbm, ⟨19, _⟩ => ⟨S64x128, .f32⟩
  | .hbm, ⟨20, _⟩ => ⟨S64x128x1, .f32⟩
  | .hbm, ⟨21, _⟩ => ⟨S64x128x512, .f32⟩
  | .hbm, ⟨22, _⟩ => ⟨S64x128x512, .f32⟩
  | .hbm, ⟨23, _⟩ => ⟨S64x128x512, .f32⟩
  | .hbm, ⟨24, _⟩ => ⟨S_, .f32⟩
  | .hbm, ⟨25, _⟩ => ⟨S64x128, .f32⟩
  | .hbm, ⟨26, _⟩ => ⟨S64x128x1, .f32⟩
  | .hbm, ⟨27, _⟩ => ⟨S64x128x512, .f32⟩
  | .hbm, ⟨28, _⟩ => ⟨S64x128x512, .f32⟩
  | .hbm, ⟨29, _⟩ => ⟨S64x128x1024, .f32⟩
  | .hbm, ⟨30, _⟩ => ⟨S64x128x1536, .f32⟩
  | .hbm, ⟨31, _⟩ => ⟨S64x196608, .f32⟩
  | _, _ => ⟨S64x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  reducesTo_S64x128x512_S64x128_d2 : S64x128x512.ReducesTo [2] S64x128
  h_S_ : 0 < S_.numel
  bcast_S64x128x1_S64x128x512_0_1_2 : S64x128x1.BroadcastsInDim S64x128x512 (![0, 1, 2] : Fin 3 → Fin S64x128x512.rank)
  concatenates_S64x128x512_S64x128x1024_S64x128x1536_d2 : Shape.Concatenates [S64x128x512, S64x128x1024] S64x128x1536 2
  shapeCasts_S64x128x1536_S64x196608 : S64x128x1536.ShapeCasts S64x196608
  gather_S20001x512_S64x128x1_S64x128x512_2_0_n_n_0_2_1512_wf : GatherDims.WF S20001x512 S64x128x1 S64x128x512 [2] [0] [] [0] [] 2 ![1, 512]
  dot_S64x128x512_S512x1024_S64x128x1024_2_0_01_1_n_n_wf : DotDims.WF S64x128x512 S512x1024 S64x128x1024 [2] [0] [0, 1] [1] [] []
  dot_S64x128x1024_S64x512x1024_S64x128x512_2_2_1_1_0_0_wf : DotDims.WF S64x128x1024 S64x512x1024 S64x128x512 [2] [2] [1] [1] [0] [0]
  dot_S64x128x512_S64x512x1024_S64x128x1024_2_1_1_2_0_0_wf : DotDims.WF S64x128x512 S64x512x1024 S64x128x1024 [2] [1] [1] [2] [0] [0]

variable [Facts₀]

def gather_S20001x512_S64x128x1_S64x128x512_2_0_n_n_0_2_1512 : GatherDims S20001x512 S64x128x1 S64x128x512 where
  offsetDims := [2]
  collapsedSliceDims := [0]
  operandBatchingDims := []
  startIndicesBatchingDims := []
  startIndexMap := [0]
  indexVectorDim := 2
  sliceSizes := ![1, 512]
  wf := gather_S20001x512_S64x128x1_S64x128x512_2_0_n_n_0_2_1512_wf
def dot_S64x128x512_S512x1024_S64x128x1024_2_0_01_1_n_n : DotDims S64x128x512 S512x1024 S64x128x1024 where
  lhsContracting := [2]
  rhsContracting := [0]
  lhsNonContracting := [0, 1]
  rhsNonContracting := [1]
  lhsBatch := []
  rhsBatch := []
  wf := dot_S64x128x512_S512x1024_S64x128x1024_2_0_01_1_n_n_wf
def dot_S64x128x1024_S64x512x1024_S64x128x512_2_2_1_1_0_0 : DotDims S64x128x1024 S64x512x1024 S64x128x512 where
  lhsContracting := [2]
  rhsContracting := [2]
  lhsNonContracting := [1]
  rhsNonContracting := [1]
  lhsBatch := [0]
  rhsBatch := [0]
  wf := dot_S64x128x1024_S64x512x1024_S64x128x512_2_2_1_1_0_0_wf
def dot_S64x128x512_S64x512x1024_S64x128x1024_2_1_1_2_0_0 : DotDims S64x128x512 S64x512x1024 S64x128x1024 where
  lhsContracting := [2]
  rhsContracting := [1]
  lhsNonContracting := [1]
  rhsNonContracting := [2]
  lhsBatch := [0]
  rhsBatch := [0]
  wf := dot_S64x128x512_S64x512x1024_S64x128x1024_2_1_1_2_0_0_wf

class Facts : Prop extends Facts₀ where

variable [Facts]
-- ==== Proof.Spec.lean ====
/-
  One attention row over the extended reals.

  For a query row `x` (512 entries), a projection `W` (512 × 1024) and a key/value matrix `D` (512 × 1024):
  the projected query `q h = ∑ᵥ x v · W v h`, its scores against the keys `s l = ∑ₕ q h · D l h`, the softmax
  weights `exp (s l − max s) / ∑ₖ exp (s k − max s)`, and the context row `∑ₗ weight l · D l h`.
  The maximum is the fold of `max` from −∞ (the f32 word `0xFF800000`), which is the bottom of the order, so taking
  the maximum with it once more changes nothing (`max_negInf`).
-/
import Idealize.ShloMosaic.PureOps.Ideal
import Idealize.ShloMosaic.PureOps.Ideal.Laws

noncomputable section

namespace Cert.Attn

open Idealize.ShloMosaic

/-- The projected query: `∑ᵥ x v · W v h`. -/
def proj (x : Fin 512 → EReal) (W : Fin 512 → Fin 1024 → EReal) (h : Fin 1024) : EReal :=
  ∑ v : Fin 512, x v * W v h

/-- The score of a projected query against key `l`: `∑ₕ q h · D l h`. -/
def score (q : Fin 1024 → EReal) (D : Fin 512 → Fin 1024 → EReal) (l : Fin 512) : EReal :=
  ∑ h : Fin 1024, q h * D l h

/-- A row's maximum, folded from −∞. -/
def rowMax (s : Fin 512 → EReal) : EReal :=
  (Finset.univ : Finset (Fin 512)).fold max (Ideal.ofBits .f32 0xFF800000#32) s

/-- The shifted exponential `exp (s l − max s)`. -/
def expo (s : Fin 512 → EReal) (l : Fin 512) : EReal := Ideal.exp (s l - rowMax s)

/-- The softmax weight of key `l`. -/
def weight (s : Fin 512 → EReal) (l : Fin 512) : EReal := Ideal.div (expo s l) (∑ k : Fin 512, expo s k)

/-- The context row: the values averaged by the softmax weights of the query's scores. -/
def ctxRow (x : Fin 512 → EReal) (W : Fin 512 → Fin 1024 → EReal) (D : Fin 512 → Fin 1024 → EReal) (h : Fin 1024) : EReal :=
  ∑ l : Fin 512, weight (score (proj x W) D) l * D l h

/-- −∞ is the bottom of the extended reals: the maximum with it is the other argument. -/
theorem max_negInf (y : EReal) : max (Ideal.ofBits .f32 0xFF800000#32) y = y := by
  simp [Ideal.ofBits, Ideal.ieee]

end Cert.Attn

end
-- ==== Proof.LibKeepdims.lean ====
/-
  Two layout readings every kernel with a keepdims-style broadcast meets: a rank-2 array [a, b] re-laid as a
  column [a, b, 1] or as a row [a, 1, b] by a shape cast and then broadcast along the new unit axis to
  [a, b, c] or [a, c, b]. Read at an index given by coordinates, the result is the array at the coordinates
  that survive: (p, i, j) ↦ v (p, i) for the column form and (p, i, j) ↦ v (p, j) for the row form.
  The extents are arbitrary; the shape-cast step is the equality of row-major positions, the broadcast step
  reads coordinate 0 on the unit axis.
-/
import Idealize.ShloMosaic.Lib.Pipeline.Value
import Idealize.ShloMosaic.Lib.ValueIdx

namespace Cert.Lib.Keepdims

open Idealize.ShloMosaic Idealize.ShloMosaic.ValueIdx

variable {α : Type}

/-- A rank-2 array cast to a trailing unit axis, [a, b] → [a, b, 1], and broadcast along it to [a, b, c], reads
    at (p, i, j) the array at (p, i). -/
theorem castCol_broadcast_apply {a b c : ℕ} (v : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩)
    (p : Fin a) (i : Fin b) (j : Fin c) :
    broadcastTo ⟨3, ![a, b, c]⟩ (shapeCast ⟨3, ![a, b, 1]⟩ v h1) h2 (ix3 p i j) = v (ix2 p i) := by
  refine (broadcastTo_apply _ h2 (ix3 p i j) (ix3 p i (0 : Fin 1)) fun ax => ?_).trans ?_
  · match ax with
    | ⟨0, _⟩ =>
      show p.val = if a = 1 then 0 else p.val
      split
      · have := p.isLt; omega
      · rfl
    | ⟨1, _⟩ =>
      show i.val = if b = 1 then 0 else i.val
      split
      · have := i.isLt; omega
      · rfl
    | ⟨2, _⟩ => exact (if_pos rfl).symm
  · refine shapeCast_apply v h1 (ix3 p i (0 : Fin 1)) (ix2 p i) ?_
    rw [Shape.rowMajor_val_two, Shape.rowMajor_val_three]
    show p.val * b + i.val = (p.val * b + i.val) * 1 + 0
    omega

/-- A rank-2 array cast to a middle unit axis, [a, b] → [a, 1, b], and broadcast along it to [a, c, b], reads
    at (p, i, j) the array at (p, j). -/
theorem castRow_broadcast_apply {a b c : ℕ} (v : (⟨2, ![a, b]⟩ : Shape).Idx → α)
    (h1 : (⟨2, ![a, b]⟩ : Shape).ShapeCasts ⟨3, ![a, 1, b]⟩)
    (h2 : (⟨3, ![a, 1, b]⟩ : Shape).Broadcasts ⟨3, ![a, c, b]⟩)
    (p : Fin a) (i : Fin c) (j : Fin b) :
    broadcastTo ⟨3, ![a, c, b]⟩ (shapeCast ⟨3, ![a, 1, b]⟩ v h1) h2 (ix3 p i j) = v (ix2 p j) := by
  refine (broadcastTo_apply _ h2 (ix3 p i j) (ix3 p (0 : Fin 1) j) fun ax => ?_).trans ?_
  · match ax with
    | ⟨0, _⟩ =>
      show p.val = if a = 1 then 0 else p.val
      split
      · have := p.isLt; omega
      · rfl
    | ⟨1, _⟩ => exact (if_pos rfl).symm
    | ⟨2, _⟩ =>
      show j.val = if b = 1 then 0 else j.val
      split
      · have := j.isLt; omega
      · rfl
  · refine shapeCast_apply v h1 (ix3 p (0 : Fin 1) j) (ix2 p j) ?_
    rw [Shape.rowMajor_val_two, Shape.rowMajor_val_three]
    show p.val * b + j.val = (p.val * 1 + 0) * b + j.val
    rw [Nat.mul_one, Nat.add_zero]

end Cert.Lib.Keepdims
-- ==== Proof.KerPay.lean ====
/-
  The kernel body's attention payload, read one coordinate at a time at the extended reals.

  The body holds a block of four batches: `v0` [4,128,512] the query rows, `v2` [512,1024] the projection, `v4`
  [4,512,1024] the keys/values. It flattens the four batches' 128 rows into 512 rows for the projection — row
  `128·p + s` of the flat product is row `s` of batch `p`, the same row-major position — and un-flattens the result;
  every later step is per batch. So at `(p, s, h)` the stored value depends on row `(p, s)` of `v0`, on `v2`, and on
  batch `p` of `v4` only, and is the context row of `Spec`:
  `∑ₗ weight l · v4 (p, l, h)`, the weights the softmax of `∑ₕ (∑ᵥ v0 (p,s,v) · v2 (v,h)) · v4 (p,l,h)`.
  Each intermediate value is one definition below (the payload is their composition, by unfolding), and each is read
  at a coordinate by one lemma: a product into the zero accumulator is the plain sum over its one contracted axis, a
  reduction over the last axis is the sum or the fold of `max` from −∞ over that axis's coordinate, a keepdims
  broadcast reads the reduced array at the surviving coordinates, a change of float format is the identity.
-/
import proofs.«145224_j84731114815752_2_alg».proof.Proof.Gen.KernelIdeal.Skeleton
import proofs.«145224_j84731114815752_2_alg».proof.Proof.Spec
import proofs.«145224_j84731114815752_2_alg».proof.Proof.LibKeepdims
import Idealize.ShloMosaic.Lib.Pipeline.Value
import Idealize.ShloMosaic.Lib.ValueIdx
import Idealize.ShloMosaic.PureOps.Ideal.Laws

noncomputable section

namespace Cert.Attn.Ker

open Idealize.ShloMosaic Idealize.ShloMosaic.ValueIdx Cert.KernelIdeal Cert.KernelIdeal.Gen Cert.Attn

/-- A product into the zero accumulator with ONE contracted axis of extent `n`, read at `j`: the sum over that axis's
    coordinate of the two factors, whatever the proof knows them to be there. -/
theorem matmul_zero_single {sl sr so : Shape} {φ₁ φ₂ : FTy} (d : DotDims sl sr so) (n : Nat) (hr : d.contr.rank = 1)
    (hs : d.contr.size ⟨0, by omega⟩ = n) (lhs : FVec Ideal sl φ₁) (rhs : FVec Ideal sr φ₂) (j : so.Idx)
    (L R : Fin n → EReal)
    (hl : ∀ k : Fin n, lhs (d.lhsIdx j ((contrEquiv1 d n hr hs).symm k)) = L k)
    (hr' : ∀ k : Fin n, rhs (d.rhsIdx j ((contrEquiv1 d n hr hs).symm k)) = R k) :
    matmul d none lhs rhs (constant (F := Ideal) so .f32 0x00000000#32) j = ∑ k : Fin n, L k * R k := by
  show FloatOps.matmul d none lhs rhs (constant (F := Ideal) so .f32 0x00000000#32) j = _
  rw [Ideal.matmul_constant_zero_apply, ← Equiv.sum_comp (contrEquiv1 d n hr hs).symm]
  exact Finset.sum_congr rfl fun k _ => by rw [hl k, hr' k]

variable (v0 : FVec Ideal S4x128x512 .f32) (v2 : FVec Ideal S512x1024 .bf16) (v4 : FVec Ideal S4x512x1024 .f32)

/-! ## The projected queries -/

/-- The four batches' query rows as 512 flat rows. -/
def flatQ : FVec Ideal S512x512 .f32 := shapeCast S512x512 (k0_pay1 (F := Ideal) v0) shapeCasts_S4x128x512_S512x512

/-- The flat projection, 512 rows by 1024. -/
def flatP : FVec Ideal S512x1024 .f32 :=
  matmul dot_S512x512_S512x1024_S512x1024_1_0_0_1_n_n none (truncf .bf16 (flatQ v0) bitsLt_bf16_f32)
    (shapeCast S512x1024 v2 shapeCasts_S512x1024_S512x1024) (constant (F := Ideal) S512x1024 .f32 0x00000000#32)

/-- The projected queries, per batch. -/
def projQ : FVec Ideal S4x128x1024 .f32 := shapeCast S4x128x1024 (flatP v0 v2) shapeCasts_S512x1024_S4x128x1024

/-- Flat row `128·p + s`. -/
abbrev flatRow (p : Fin 4) (s : Fin 128) : Fin 512 := ⟨128 * p.val + s.val, by have := p.isLt; have := s.isLt; omega⟩

theorem flatQ_apply (p : Fin 4) (s : Fin 128) (v : Fin 512) : flatQ v0 (ix2 (flatRow p s) v) = v0 (ix3 p s v) := by
  unfold flatQ
  refine (shapeCast_apply _ shapeCasts_S4x128x512_S512x512 (ix2 (flatRow p s) v) (ix3 p s v) ?_).trans ?_
  · rw [Shape.rowMajor_val_three, Shape.rowMajor_val_two]
    show (p.val * 128 + s.val) * 512 + v.val = (128 * p.val + s.val) * 512 + v.val
    omega
  · unfold k0_pay1
    exact congrFun (shapeCast_self _ _) _

theorem lhsP_0 (j : S512x1024.Idx) (q : dot_S512x512_S512x1024_S512x1024_1_0_0_1_n_n.contr.Idx) :
    (dot_S512x512_S512x1024_S512x1024_1_0_0_1_n_n.lhsIdx j q 0).val = (j 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhsP_1 (j : S512x1024.Idx) (q : dot_S512x512_S512x1024_S512x1024_1_0_0_1_n_n.contr.Idx) :
    (dot_S512x512_S512x1024_S512x1024_1_0_0_1_n_n.lhsIdx j q 1).val = (q ⟨0, by decide⟩).val :=
  dot_S512x512_S512x1024_S512x1024_1_0_0_1_n_n.lhsIdx_val_of_single rfl j q
theorem rhsP_0 (j : S512x1024.Idx) (q : dot_S512x512_S512x1024_S512x1024_1_0_0_1_n_n.contr.Idx) :
    (dot_S512x512_S512x1024_S512x1024_1_0_0_1_n_n.rhsIdx j q 0).val = (q ⟨0, by decide⟩).val :=
  dot_S512x512_S512x1024_S512x1024_1_0_0_1_n_n.rhsIdx_val_of_single rfl j q
theorem rhsP_1 (j : S512x1024.Idx) (q : dot_S512x512_S512x1024_S512x1024_1_0_0_1_n_n.contr.Idx) :
    (dot_S512x512_S512x1024_S512x1024_1_0_0_1_n_n.rhsIdx j q 1).val = (j 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The projected query of row `(p, s)` is `proj` of that row of `v0` and of `v2`. -/
theorem projQ_apply (p : Fin 4) (s : Fin 128) (h : Fin 1024) :
    projQ v0 v2 (ix3 p s h) = proj (fun v => v0 (ix3 p s v)) (fun v h => v2 (ix2 v h)) h := by
  unfold projQ
  refine (shapeCast_apply _ shapeCasts_S512x1024_S4x128x1024 (ix3 p s h) (ix2 (flatRow p s) h) ?_).trans ?_
  · rw [Shape.rowMajor_val_three, Shape.rowMajor_val_two]
    show (128 * p.val + s.val) * 1024 + h.val = (p.val * 128 + s.val) * 1024 + h.val
    omega
  · unfold flatP proj
    refine matmul_zero_single dot_S512x512_S512x1024_S512x1024_1_0_0_1_n_n 512 rfl rfl _ _ _ _ _ (fun k => ?_) (fun k => ?_)
    · have hk := contrEquiv1_symm_val dot_S512x512_S512x1024_S512x1024_1_0_0_1_n_n 512 rfl rfl k
      have el : dot_S512x512_S512x1024_S512x1024_1_0_0_1_n_n.lhsIdx (ix2 (flatRow p s) h) ((contrEquiv1 dot_S512x512_S512x1024_S512x1024_1_0_0_1_n_n 512 rfl rfl).symm k) = ix2 (flatRow p s) k := funext fun a => Fin.ext (by
        match a with
        | ⟨0, _⟩ => exact lhsP_0 _ _
        | ⟨1, _⟩ => exact (lhsP_1 _ _).trans hk)
      rw [el]
      exact flatQ_apply v0 p s k
    · have hk := contrEquiv1_symm_val dot_S512x512_S512x1024_S512x1024_1_0_0_1_n_n 512 rfl rfl k
      have er : dot_S512x512_S512x1024_S512x1024_1_0_0_1_n_n.rhsIdx (ix2 (flatRow p s) h) ((contrEquiv1 dot_S512x512_S512x1024_S512x1024_1_0_0_1_n_n 512 rfl rfl).symm k) = ix2 k h := funext fun a => Fin.ext (by
        match a with
        | ⟨0, _⟩ => exact (rhsP_0 _ _).trans hk
        | ⟨1, _⟩ => exact rhsP_1 _ _)
      rw [er]
      exact congrFun (shapeCast_self _ _) _

/-! ## The scores -/

/-- The scores of every query row against its batch's keys. -/
def scores : FVec Ideal S4x128x512 .f32 :=
  matmul dot_S4x128x1024_S4x512x1024_S4x128x512_2_2_1_1_0_0 none (projQ v0 v2) v4 (constant (F := Ideal) S4x128x512 .f32 0x00000000#32)

theorem lhsS_0 (j : S4x128x512.Idx) (q : dot_S4x128x1024_S4x512x1024_S4x128x512_2_2_1_1_0_0.contr.Idx) :
    (dot_S4x128x1024_S4x512x1024_S4x128x512_2_2_1_1_0_0.lhsIdx j q 0).val = (j 0).val := by
  unfold DotDims.lhsIdx
  rw [dif_pos (show (0 : Fin S4x128x1024.rank) ∈ dot_S4x128x1024_S4x512x1024_S4x128x512_2_2_1_1_0_0.lhsBatch by decide)]
  rfl
theorem lhsS_1 (j : S4x128x512.Idx) (q : dot_S4x128x1024_S4x512x1024_S4x128x512_2_2_1_1_0_0.contr.Idx) :
    (dot_S4x128x1024_S4x512x1024_S4x128x512_2_2_1_1_0_0.lhsIdx j q 1).val = (j 1).val := by
  unfold DotDims.lhsIdx
  rw [dif_neg (show ¬(1 : Fin S4x128x1024.rank) ∈ dot_S4x128x1024_S4x512x1024_S4x128x512_2_2_1_1_0_0.lhsBatch by decide), dif_pos (show (1 : Fin S4x128x1024.rank) ∈ dot_S4x128x1024_S4x512x1024_S4x128x512_2_2_1_1_0_0.lhsNonContracting by decide)]
  rfl
theorem lhsS_2 (j : S4x128x512.Idx) (q : dot_S4x128x1024_S4x512x1024_S4x128x512_2_2_1_1_0_0.contr.Idx) :
    (dot_S4x128x1024_S4x512x1024_S4x128x512_2_2_1_1_0_0.lhsIdx j q 2).val = (q ⟨0, by decide⟩).val :=
  dot_S4x128x1024_S4x512x1024_S4x128x512_2_2_1_1_0_0.lhsIdx_val_of_single rfl j q
theorem rhsS_0 (j : S4x128x512.Idx) (q : dot_S4x128x1024_S4x512x1024_S4x128x512_2_2_1_1_0_0.contr.Idx) :
    (dot_S4x128x1024_S4x512x1024_S4x128x512_2_2_1_1_0_0.rhsIdx j q 0).val = (j 0).val := by
  unfold DotDims.rhsIdx
  rw [dif_pos (show (0 : Fin S4x512x1024.rank) ∈ dot_S4x128x1024_S4x512x1024_S4x128x512_2_2_1_1_0_0.rhsBatch by decide)]
  rfl
theorem rhsS_1 (j : S4x128x512.Idx) (q : dot_S4x128x1024_S4x512x1024_S4x128x512_2_2_1_1_0_0.contr.Idx) :
    (dot_S4x128x1024_S4x512x1024_S4x128x512_2_2_1_1_0_0.rhsIdx j q 1).val = (j 2).val := by
  unfold DotDims.rhsIdx
  rw [dif_neg (show ¬(1 : Fin S4x512x1024.rank) ∈ dot_S4x128x1024_S4x512x1024_S4x128x512_2_2_1_1_0_0.rhsBatch by decide), dif_pos (show (1 : Fin S4x512x1024.rank) ∈ dot_S4x128x1024_S4x512x1024_S4x128x512_2_2_1_1_0_0.rhsNonContracting by decide)]
  rfl
theorem rhsS_2 (j : S4x128x512.Idx) (q : dot_S4x128x1024_S4x512x1024_S4x128x512_2_2_1_1_0_0.contr.Idx) :
    (dot_S4x128x1024_S4x512x1024_S4x128x512_2_2_1_1_0_0.rhsIdx j q 2).val = (q ⟨0, by decide⟩).val :=
  dot_S4x128x1024_S4x512x1024_S4x128x512_2_2_1_1_0_0.rhsIdx_val_of_single rfl j q

/-- The score of row `(p, s)` against key `l` of batch `p`. -/
theorem scores_apply (p : Fin 4) (s : Fin 128) (l : Fin 512) :
    scores v0 v2 v4 (ix3 p s l) = score (fun h => projQ v0 v2 (ix3 p s h)) (fun l h => v4 (ix3 p l h)) l := by
  unfold scores score
  refine matmul_zero_single dot_S4x128x1024_S4x512x1024_S4x128x512_2_2_1_1_0_0 1024 rfl rfl _ _ _ _ _ (fun k => ?_) (fun k => ?_)
  · have hk := contrEquiv1_symm_val dot_S4x128x1024_S4x512x1024_S4x128x512_2_2_1_1_0_0 1024 rfl rfl k
    have el : dot_S4x128x1024_S4x512x1024_S4x128x512_2_2_1_1_0_0.lhsIdx (ix3 p s l) ((contrEquiv1 dot_S4x128x1024_S4x512x1024_S4x128x512_2_2_1_1_0_0 1024 rfl rfl).symm k) = ix3 p s k := funext fun a => Fin.ext (by
      match a with
      | ⟨0, _⟩ => exact lhsS_0 _ _
      | ⟨1, _⟩ => exact lhsS_1 _ _
      | ⟨2, _⟩ => exact (lhsS_2 _ _).trans hk)
    rw [el]
  · have hk := contrEquiv1_symm_val dot_S4x128x1024_S4x512x1024_S4x128x512_2_2_1_1_0_0 1024 rfl rfl k
    have er : dot_S4x128x1024_S4x512x1024_S4x128x512_2_2_1_1_0_0.rhsIdx (ix3 p s l) ((contrEquiv1 dot_S4x128x1024_S4x512x1024_S4x128x512_2_2_1_1_0_0 1024 rfl rfl).symm k) = ix3 p l k := funext fun a => Fin.ext (by
      match a with
      | ⟨0, _⟩ => exact rhsS_0 _ _
      | ⟨1, _⟩ => exact rhsS_1 _ _
      | ⟨2, _⟩ => exact (rhsS_2 _ _).trans hk)
    rw [er]

/-! ## The softmax over the keys -/

/-- The reduced index `(p, s)` with key `k` put back on the last axis is `(p, s, k)`. -/
theorem lift_last (p : Fin 4) (s : Fin 128) (k : Fin (S4x128x512.size 2)) :
    reduces_S4x128x512_S4x128.lift (ix2 p s) k = ix3 p s (⟨k.val, k.isLt⟩ : Fin 512) := by
  funext c; apply Fin.ext
  fin_cases c <;> rfl

/-- Each row's maximum score. -/
def maxes : FVec Ideal S4x128 .f32 :=
  multiReduction .maximumf [2] S4x128 (scores v0 v2 v4) 0xFF800000#32 reduces_S4x128x512_S4x128 (.inl rfl) rfl

theorem maxes_apply (p : Fin 4) (s : Fin 128) :
    maxes v0 v2 v4 (ix2 p s) = rowMax (fun l => scores v0 v2 v4 (ix3 p s l)) := by
  unfold maxes rowMax
  refine (Ideal.multiReduction_maximumf_single (scores v0 v2 v4) 0xFF800000#32 reduces_S4x128x512_S4x128 (.inl rfl) rfl (ix2 p s)).trans ?_
  have hf : (scores v0 v2 v4 ∘ reduces_S4x128x512_S4x128.lift (ix2 p s)) = fun k : Fin 512 => scores v0 v2 v4 (ix3 p s k) :=
    funext fun k => congrArg (scores v0 v2 v4) (lift_last p s k)
  exact congrArg (fun f => Finset.fold max (Ideal.ofBits .f32 0xFF800000#32) f (Finset.univ : Finset (Fin 512))) hf

/-- The shifted exponentials. -/
def exps : FVec Ideal S4x128x512 .f32 :=
  exp (subf (scores v0 v2 v4) (broadcastTo S4x128x512 (shapeCast S4x128x1 (maxes v0 v2 v4) shapeCasts_S4x128_S4x128x1) broadcasts_S4x128x1_S4x128x512))

theorem exps_apply (p : Fin 4) (s : Fin 128) (l : Fin 512) :
    exps v0 v2 v4 (ix3 p s l) = expo (fun l => scores v0 v2 v4 (ix3 p s l)) l := by
  unfold exps expo
  show Ideal.exp (scores v0 v2 v4 (ix3 p s l) - broadcastTo S4x128x512 (shapeCast S4x128x1 (maxes v0 v2 v4) shapeCasts_S4x128_S4x128x1) broadcasts_S4x128x1_S4x128x512 (ix3 p s l)) = _
  rw [Cert.Lib.Keepdims.castCol_broadcast_apply, maxes_apply]

/-- Each row's sum of exponentials. -/
def sums : FVec Ideal S4x128 .f32 :=
  multiReduction .add [2] S4x128 (exps v0 v2 v4) 0x00000000#32 reduces_S4x128x512_S4x128 (.inl rfl) rfl

theorem sums_apply (p : Fin 4) (s : Fin 128) :
    sums v0 v2 v4 (ix2 p s) = ∑ k : Fin 512, exps v0 v2 v4 (ix3 p s k) := by
  unfold sums
  refine (Ideal.multiReduction_add_single (exps v0 v2 v4) 0x00000000#32 reduces_S4x128x512_S4x128 (.inl rfl) rfl (ix2 p s)).trans ?_
  exact Finset.sum_congr rfl fun k _ => congrArg (exps v0 v2 v4) (lift_last p s k)

/-- The softmax weights. -/
def weights : FVec Ideal S4x128x512 .f32 :=
  divf (exps v0 v2 v4) (broadcastTo S4x128x512 (shapeCast S4x128x1 (sums v0 v2 v4) shapeCasts_S4x128_S4x128x1) broadcasts_S4x128x1_S4x128x512)

theorem weights_apply (p : Fin 4) (s : Fin 128) (l : Fin 512) :
    weights v0 v2 v4 (ix3 p s l) = weight (fun l => scores v0 v2 v4 (ix3 p s l)) l := by
  unfold weights weight
  show Ideal.div (exps v0 v2 v4 (ix3 p s l)) (broadcastTo S4x128x512 (shapeCast S4x128x1 (sums v0 v2 v4) shapeCasts_S4x128_S4x128x1) broadcasts_S4x128x1_S4x128x512 (ix3 p s l)) = _
  rw [Cert.Lib.Keepdims.castCol_broadcast_apply, sums_apply]
  simp only [exps_apply]

/-! ## The context rows -/

/-- The values averaged by the weights. -/
def ctx : FVec Ideal S4x128x1024 .f32 :=
  matmul dot_S4x128x512_S4x512x1024_S4x128x1024_2_1_1_2_0_0 none (truncf .bf16 (weights v0 v2 v4) bitsLt_bf16_f32)
    (truncf .bf16 v4 bitsLt_bf16_f32) (constant (F := Ideal) S4x128x1024 .f32 0x00000000#32)

/-- The body's second stored value is the composition of the stages above. -/
theorem pay2_eq : k0_pay2 (F := Ideal) v0 v2 v4 = ctx v0 v2 v4 := rfl

theorem lhsC_0 (j : S4x128x1024.Idx) (q : dot_S4x128x512_S4x512x1024_S4x128x1024_2_1_1_2_0_0.contr.Idx) :
    (dot_S4x128x512_S4x512x1024_S4x128x1024_2_1_1_2_0_0.lhsIdx j q 0).val = (j 0).val := by
  unfold DotDims.lhsIdx
  rw [dif_pos (show (0 : Fin S4x128x512.rank) ∈ dot_S4x128x512_S4x512x1024_S4x128x1024_2_1_1_2_0_0.lhsBatch by decide)]
  rfl
theorem lhsC_1 (j : S4x128x1024.Idx) (q : dot_S4x128x512_S4x512x1024_S4x128x1024_2_1_1_2_0_0.contr.Idx) :
    (dot_S4x128x512_S4x512x1024_S4x128x1024_2_1_1_2_0_0.lhsIdx j q 1).val = (j 1).val := by
  unfold DotDims.lhsIdx
  rw [dif_neg (show ¬(1 : Fin S4x128x512.rank) ∈ dot_S4x128x512_S4x512x1024_S4x128x1024_2_1_1_2_0_0.lhsBatch by decide), dif_pos (show (1 : Fin S4x128x512.rank) ∈ dot_S4x128x512_S4x512x1024_S4x128x1024_2_1_1_2_0_0.lhsNonContracting by decide)]
  rfl
theorem lhsC_2 (j : S4x128x1024.Idx) (q : dot_S4x128x512_S4x512x1024_S4x128x1024_2_1_1_2_0_0.contr.Idx) :
    (dot_S4x128x512_S4x512x1024_S4x128x1024_2_1_1_2_0_0.lhsIdx j q 2).val = (q ⟨0, by decide⟩).val :=
  dot_S4x128x512_S4x512x1024_S4x128x1024_2_1_1_2_0_0.lhsIdx_val_of_single rfl j q
theorem rhsC_0 (j : S4x128x1024.Idx) (q : dot_S4x128x512_S4x512x1024_S4x128x1024_2_1_1_2_0_0.contr.Idx) :
    (dot_S4x128x512_S4x512x1024_S4x128x1024_2_1_1_2_0_0.rhsIdx j q 0).val = (j 0).val := by
  unfold DotDims.rhsIdx
  rw [dif_pos (show (0 : Fin S4x512x1024.rank) ∈ dot_S4x128x512_S4x512x1024_S4x128x1024_2_1_1_2_0_0.rhsBatch by decide)]
  rfl
theorem rhsC_1 (j : S4x128x1024.Idx) (q : dot_S4x128x512_S4x512x1024_S4x128x1024_2_1_1_2_0_0.contr.Idx) :
    (dot_S4x128x512_S4x512x1024_S4x128x1024_2_1_1_2_0_0.rhsIdx j q 1).val = (q ⟨0, by decide⟩).val :=
  dot_S4x128x512_S4x512x1024_S4x128x1024_2_1_1_2_0_0.rhsIdx_val_of_single rfl j q
theorem rhsC_2 (j : S4x128x1024.Idx) (q : dot_S4x128x512_S4x512x1024_S4x128x1024_2_1_1_2_0_0.contr.Idx) :
    (dot_S4x128x512_S4x512x1024_S4x128x1024_2_1_1_2_0_0.rhsIdx j q 2).val = (j 2).val := by
  unfold DotDims.rhsIdx
  rw [dif_neg (show ¬(2 : Fin S4x512x1024.rank) ∈ dot_S4x128x512_S4x512x1024_S4x128x1024_2_1_1_2_0_0.rhsBatch by decide), dif_pos (show (2 : Fin S4x512x1024.rank) ∈ dot_S4x128x512_S4x512x1024_S4x128x1024_2_1_1_2_0_0.rhsNonContracting by decide)]
  rfl

theorem ctx_apply (p : Fin 4) (s : Fin 128) (h : Fin 1024) :
    ctx v0 v2 v4 (ix3 p s h) = ∑ l : Fin 512, weights v0 v2 v4 (ix3 p s l) * v4 (ix3 p l h) := by
  unfold ctx
  refine matmul_zero_single dot_S4x128x512_S4x512x1024_S4x128x1024_2_1_1_2_0_0 512 rfl rfl _ _ _ _ _ (fun k => ?_) (fun k => ?_)
  · have hk := contrEquiv1_symm_val dot_S4x128x512_S4x512x1024_S4x128x1024_2_1_1_2_0_0 512 rfl rfl k
    have el : dot_S4x128x512_S4x512x1024_S4x128x1024_2_1_1_2_0_0.lhsIdx (ix3 p s h) ((contrEquiv1 dot_S4x128x512_S4x512x1024_S4x128x1024_2_1_1_2_0_0 512 rfl rfl).symm k) = ix3 p s k := funext fun a => Fin.ext (by
      match a with
      | ⟨0, _⟩ => exact lhsC_0 _ _
      | ⟨1, _⟩ => exact lhsC_1 _ _
      | ⟨2, _⟩ => exact (lhsC_2 _ _).trans hk)
    rw [el]
    rfl
  · have hk := contrEquiv1_symm_val dot_S4x128x512_S4x512x1024_S4x128x1024_2_1_1_2_0_0 512 rfl rfl k
    have er : dot_S4x128x512_S4x512x1024_S4x128x1024_2_1_1_2_0_0.rhsIdx (ix3 p s h) ((contrEquiv1 dot_S4x128x512_S4x512x1024_S4x128x1024_2_1_1_2_0_0 512 rfl rfl).symm k) = ix3 p k h := funext fun a => Fin.ext (by
      match a with
      | ⟨0, _⟩ => exact rhsC_0 _ _
      | ⟨1, _⟩ => exact (rhsC_1 _ _).trans hk
      | ⟨2, _⟩ => exact rhsC_2 _ _)
    rw [er]
    rfl

/-- The second stored value at `(p, s, h)` is the context row of query row `(p, s)` against batch `p`'s keys and values. -/
theorem pay2_apply (p : Fin 4) (s : Fin 128) (h : Fin 1024) :
    k0_pay2 (F := Ideal) v0 v2 v4 (ix3 p s h)
      = ctxRow (fun v => v0 (ix3 p s v)) (fun v h => v2 (ix2 v h)) (fun l h => v4 (ix3 p l h)) h := by
  rw [pay2_eq, ctx_apply]
  unfold ctxRow
  have hs : (fun l => scores v0 v2 v4 (ix3 p s l))
      = score (proj (fun v => v0 (ix3 p s v)) (fun v h => v2 (ix2 v h))) (fun l h => v4 (ix3 p l h)) := by
    funext l
    rw [scores_apply]
    exact congrArg (fun q => score q (fun l h => v4 (ix3 p l h)) l) (funext fun h => projQ_apply v0 v2 p s h)
  refine Finset.sum_congr rfl fun l _ => ?_
  rw [weights_apply, hs]

/-- The first stored value is the query block itself. -/
theorem pay1_apply (j : S4x128x512.Idx) : k0_pay1 (F := Ideal) v0 j = v0 j := by
  unfold k0_pay1
  exact congrFun (shapeCast_self _ _) _

end Cert.Attn.Ker

end
-- ==== Proof.KerBlock.lean ====
/-
  What the kernel body leaves in its output block, as ONE function of the block's index.

  The body stores twice into the [4,128,1536] block: the query block as loaded into columns 0..511, and the attention
  payload into columns 512..1535. The two rectangles tile the block, each store's value at its own index is this
  function at the index the rectangle places it at, so the block reads back as the function everywhere — whatever
  the block held before (the body's two loads of the output block are not used by what it stores).
-/
import proofs.«145224_j84731114815752_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.Attn.Block

open Idealize.ShloMosaic Idealize.ShloMosaic.TcCoe Idealize.ShloMosaic.Tactic Idealize.SL.Sem Idealize.ShloMosaic.ValueIdx
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The block after the body: column `j < 512` of row `(p, s)` is the query block at `(p, s, j)`; column `j ≥ 512` is
    the attention payload at `(p, s, j − 512)`. -/
def blockOut (x0 : Vec F S4x128x512 .f32) (x1 : Vec F S512x1024 .bf16) (x2 : Vec F S4x512x1024 .f32) : Vec F S4x128x1536 .f32 :=
  fun y =>
    if h : (y 2).val < 512 then
      k0_pay1 x0 (ix3 (⟨(y 0).val, (y 0).isLt⟩ : Fin 4) (⟨(y 1).val, (y 1).isLt⟩ : Fin 128) (⟨(y 2).val, h⟩ : Fin 512))
    else
      k0_pay2 x0 x1 x2 (ix3 (⟨(y 0).val, (y 0).isLt⟩ : Fin 4) (⟨(y 1).val, (y 1).isLt⟩ : Fin 128)
        (⟨(y 2).val - 512, by have h2 : (y 2).val < 1536 := (y 2).isLt; omega⟩ : Fin 1024))

/-- On columns 0..511 it is the first stored value; -/
theorem blockOut_left (x0 : Vec F S4x128x512 .f32) (x1 : Vec F S512x1024 .bf16) (x2 : Vec F S4x512x1024 .f32) (y : S4x128x1536.Idx)
    (h : (y 2).val < 512) :
    blockOut x0 x1 x2 y
      = k0_pay1 x0 (ix3 (⟨(y 0).val, (y 0).isLt⟩ : Fin 4) (⟨(y 1).val, (y 1).isLt⟩ : Fin 128) (⟨(y 2).val, h⟩ : Fin 512)) := by
  unfold blockOut
  exact dif_pos h

/-- on columns 512..1535 the second. -/
theorem blockOut_right (x0 : Vec F S4x128x512 .f32) (x1 : Vec F S512x1024 .bf16) (x2 : Vec F S4x512x1024 .f32) (y : S4x128x1536.Idx)
    (h : ¬(y 2).val < 512) :
    blockOut x0 x1 x2 y
      = k0_pay2 x0 x1 x2 (ix3 (⟨(y 0).val, (y 0).isLt⟩ : Fin 4) (⟨(y 1).val, (y 1).isLt⟩ : Fin 128)
          (⟨(y 2).val - 512, by have h2 : (y 2).val < 1536 := (y 2).isLt; omega⟩ : Fin 1024)) := by
  unfold blockOut
  exact dif_neg h

/-- The body's output block IS that function. -/
theorem out_eq (c : Dev nD) (i : grid0.Coords) (arg1 : Memref sig .tc .vmem S4x128x512 .f32) (harg1 : arg1.IsWhole) (arg2 : Memref sig .tc .vmem S512x1024 .bf16) (harg2 : arg2.IsWhole) (arg3 : Memref sig .tc .vmem S4x512x1024 .f32) (harg3 : arg3.IsWhole) (arg4 : Memref sig .tc .vmem S4x128x1536 .f32) (harg4 : arg4.IsWhole) (x0 : Vec F S4x128x512 .f32) (x1 : Vec F S512x1024 .bf16) (x2 : Vec F S4x512x1024 .f32) :
    out0_A_3 c i arg1 harg1 arg2 harg2 arg3 harg3 arg4 harg4 x0 x1 x2 = blockOut x0 x1 x2 := by
  unfold out0_A_3
  rw [View.read_writes_eq_canon _ _ _ (cover0_A_3 c i arg1 harg1 arg2 harg2 arg3 harg3 arg4 harg4 x0 x1 x2)]
  funext y
  refine View.canon_apply_of_pieces (blockOut x0 x1 x2) _ ?_ y (cover0_A_3 c i arg1 harg1 arg2 harg2 arg3 harg3 arg4 harg4 x0 x1 x2 y)
  unfold kernelRun0_A
  dsimp only
  simp only [View.readAt_eq_ld, harg1.read_unread, harg2.read_unread, harg3.read_unread,
    View.ld_unit_zero (S := S4x128x512) hz3, View.ld_unit_zero (S := S512x1024) hz2, View.ld_unit_zero (S := S4x512x1024) hz3]
  intro p hp x
  simp only [List.mem_cons, List.mem_nil_iff, or_false] at hp
  rcases hp with rfl | rfl
  · -- the payload store, placed at columns 512..1535
    dsimp only
    unfold blockOut
    dsimp only
    split
    · next h =>
      exfalso
      revert h
      show ¬(512 + 1 * (x 2).val < 512)
      omega
    · refine congrArg (k0_pay2 x0 x1 x2) (funext fun a => Fin.ext ?_)
      match a with
      | ⟨0, _⟩ => show (x 0).val = 0 + 1 * (x 0).val; omega
      | ⟨1, _⟩ => show (x 1).val = 0 + 1 * (x 1).val; omega
      | ⟨2, _⟩ => show (x 2).val = 512 + 1 * (x 2).val - 512; omega
  · -- the query block, placed at columns 0..511
    dsimp only
    unfold blockOut
    dsimp only
    split
    · refine congrArg (k0_pay1 x0) (funext fun a => Fin.ext ?_)
      match a with
      | ⟨0, _⟩ => show (x 0).val = 0 + 1 * (x 0).val; omega
      | ⟨1, _⟩ => show (x 1).val = 0 + 1 * (x 1).val; omega
      | ⟨2, _⟩ => show (x 2).val = 0 + 1 * (x 2).val; omega
    · next h =>
      exfalso
      apply h
      have h2 : (x 2).val < 512 := (x 2).isLt
      show 0 + 1 * (x 2).val < 512
      omega

end Cert.Attn.Block

end
-- ==== Proof.RefRead.lean ====
/-
  The reference, read one coordinate at a time at the extended reals.

  Write `sk` for the gathered embedding rows [64,128,512] (the same gather of the same normalised indices as on the
  kernel's side; it is never opened). Row `(b, s)` of the reference's result is `sk (b, s, ·)` on columns 0..511 and,
  on columns 512..1535, the context row of `Spec` for the query row `sk (b, s, ·)`, the projection `W` and batch `b`
  of the keys/values. The reference takes the row maximum by a reduce from −∞ and then once more the maximum with
  −∞, which is the identity; its sum starts from the zero word, which is `0`.
-/
import proofs.«145224_j84731114815752_2_alg».proof.Proof.Gen.ReferenceIdeal.Read
import proofs.«145224_j84731114815752_2_alg».proof.Proof.Spec
import Idealize.ShloMosaic.Lib.Pipeline.Value
import Idealize.ShloMosaic.Lib.ValueIdx
import Idealize.ShloMosaic.PureOps.Ideal.Laws

noncomputable section

namespace Cert.Attn.Ref

open Idealize.ShloMosaic Idealize.ShloMosaic.ValueIdx Cert.ReferenceIdeal Cert.ReferenceIdeal.Gen Cert.ReferenceIdeal.Read Cert.Attn

variable (x0 : (⟨S64x128, .i32⟩ : BufTy).Contents (Elt Ideal)) (x1 : (⟨S64x512x1024, .f32⟩ : BufTy).Contents (Elt Ideal)) (x2 : (⟨S20001x512, .f32⟩ : BufTy).Contents (Elt Ideal)) (x3 : (⟨S512x1024, .f32⟩ : BufTy).Contents (Elt Ideal))

/-- The projected query of row `(b, s)`. -/
theorem v7_at (b : Fin 64) (s : Fin 128) (h : Fin 1024) :
    val_main_v7 (F := Ideal) x0 x2 x3 (ix3 b s h)
      = proj (fun v => val_main_v6 (F := Ideal) x0 x2 (ix3 b s v)) (fun v h => x3 (ix2 v h)) h := by
  rw [val_main_v7_apply]
  unfold proj
  refine Finset.sum_congr rfl fun k _ => ?_
  have el : lidx_main_v7 (ix3 b s h) k = ix3 b s k := funext fun a => Fin.ext (by
    match a with
    | ⟨0, _⟩ => rfl
    | ⟨1, _⟩ => rfl
    | ⟨2, _⟩ => rfl)
  have er : ridx_main_v7 (ix3 b s h) k = ix2 k h := funext fun a => Fin.ext (by
    match a with
    | ⟨0, _⟩ => rfl
    | ⟨1, _⟩ => rfl)
  rw [el, er]

/-- The score of row `(b, s)` against key `l` of batch `b`. -/
theorem v8_at (b : Fin 64) (s : Fin 128) (l : Fin 512) :
    val_main_v8 (F := Ideal) x0 x1 x2 x3 (ix3 b s l)
      = score (fun h => val_main_v7 (F := Ideal) x0 x2 x3 (ix3 b s h)) (fun l h => x1 (ix3 b l h)) l := by
  rw [val_main_v8_apply]
  unfold score
  refine Finset.sum_congr rfl fun k _ => ?_
  have el : lidx_main_v8 (ix3 b s l) k = ix3 b s k := funext fun a => Fin.ext (by
    match a with
    | ⟨0, _⟩ => rfl
    | ⟨1, _⟩ => rfl
    | ⟨2, _⟩ => rfl)
  have er : ridx_main_v8 (ix3 b s l) k = ix3 b l k := funext fun a => Fin.ext (by
    match a with
    | ⟨0, _⟩ => rfl
    | ⟨1, _⟩ => rfl
    | ⟨2, _⟩ => rfl)
  rw [el, er]

/-- The scores of row `(b, s)`, as a function of the key. -/
abbrev row (b : Fin 64) (s : Fin 128) : Fin 512 → EReal := fun l => val_main_v8 (F := Ideal) x0 x1 x2 x3 (ix3 b s l)

theorem lift_last (h : S64x128x512.Reduces [2] S64x128) (b : Fin 64) (s : Fin 128) (k : Fin (S64x128x512.size 2)) :
    h.lift (ix2 b s) k = ix3 b s (⟨k.val, k.isLt⟩ : Fin 512) := by
  funext c; apply Fin.ext
  fin_cases c <;> rfl

/-- The host's reduce from −∞ with a maximum body over the last axis, of any array, at `(b, s)`: the fold of `max`
    from −∞ over the keys. (Stated of an arbitrary array so that the full-size operand is never unfolded.) -/
theorem hostMax_last (y : FVec Ideal S64x128x512 .f32) (b : Fin 64) (s : Fin 128) :
    Host.reduce FloatOps.maximumf y (val_main_cst (F := Ideal)) reducesTo_S64x128x512_S64x128_d2 h_S_ (ix2 b s)
      = rowMax (fun l => y (ix3 b s l)) := by
  have h : S64x128x512.Reduces [2] S64x128 := by decide
  rw [Host.reduce_eq_fold_single FloatOps.maximumf y _ reducesTo_S64x128x512_S64x128_d2 h h_S_]
  unfold rowMax
  have hf : (y ∘ h.lift (ix2 b s)) = fun l : Fin 512 => y (ix3 b s l) := funext fun k => congrArg y (lift_last h b s k)
  exact congrArg (fun f => Finset.fold max (Ideal.ofBits .f32 0xFF800000#32) f (Finset.univ : Finset (Fin 512))) hf

/-- The reduce from −∞ with a maximum body is the row's maximum. -/
theorem v9_at (b : Fin 64) (s : Fin 128) :
    val_main_v9 (F := Ideal) x0 x1 x2 x3 (ix2 b s) = rowMax (row x0 x1 x2 x3 b s) := by
  unfold val_main_v9
  exact hostMax_last _ b s

/-- The maximum with −∞ once more is still the row's maximum. -/
theorem v11_at (b : Fin 64) (s : Fin 128) :
    val_main_v11 (F := Ideal) x0 x1 x2 x3 (ix2 b s) = rowMax (row x0 x1 x2 x3 b s) := by
  rw [val_main_v11_apply, val_main_v10_apply, v9_at]
  exact max_negInf _

/-- The keepdims broadcast of the maxima reads the row's maximum. -/
theorem v13_at (b : Fin 64) (s : Fin 128) (l : Fin 512) :
    val_main_v13 (F := Ideal) x0 x1 x2 x3 (ix3 b s l) = rowMax (row x0 x1 x2 x3 b s) := by
  rw [val_main_v13_apply, val_main_v12_apply]
  have e : idx_main_v12 (idx_main_v13 (ix3 b s l)) = ix2 b s := funext fun a => Fin.ext (by
    match a with
    | ⟨0, _⟩ => rfl
    | ⟨1, _⟩ => rfl)
  rw [e, v11_at]

/-- The shifted exponential. -/
theorem v15_at (b : Fin 64) (s : Fin 128) (l : Fin 512) :
    val_main_v15 (F := Ideal) x0 x1 x2 x3 (ix3 b s l) = expo (row x0 x1 x2 x3 b s) l := by
  rw [val_main_v15_apply, val_main_v14_apply, v13_at]
  rfl

/-- The row's sum of exponentials: the zero word is `0`. -/
theorem v16_at (b : Fin 64) (s : Fin 128) :
    val_main_v16 (F := Ideal) x0 x1 x2 x3 (ix2 b s) = ∑ k : Fin 512, expo (row x0 x1 x2 x3 b s) k := by
  rw [val_main_v16_apply, val_main_cst_2_apply]
  show Ideal.ofBits .f32 0x00000000#32 + _ = _
  rw [Ideal.ofBits_zero_f32, zero_add]
  refine Finset.sum_congr rfl fun k _ => ?_
  have e : idx_main_v16 (ix2 b s) k = ix3 b s k := funext fun a => Fin.ext (by
    match a with
    | ⟨0, _⟩ => rfl
    | ⟨1, _⟩ => rfl
    | ⟨2, _⟩ => rfl)
  rw [e, v15_at]

/-- The softmax weight. -/
theorem v19_at (b : Fin 64) (s : Fin 128) (l : Fin 512) :
    val_main_v19 (F := Ideal) x0 x1 x2 x3 (ix3 b s l) = weight (row x0 x1 x2 x3 b s) l := by
  rw [val_main_v19_apply, val_main_v18_apply, val_main_v17_apply]
  have e : idx_main_v17 (idx_main_v18 (ix3 b s l)) = ix2 b s := funext fun a => Fin.ext (by
    match a with
    | ⟨0, _⟩ => rfl
    | ⟨1, _⟩ => rfl)
  rw [e, v16_at, v15_at]
  rfl

/-- The context row of `(b, s)`. -/
theorem v20_at (b : Fin 64) (s : Fin 128) (h : Fin 1024) :
    val_main_v20 (F := Ideal) x0 x1 x2 x3 (ix3 b s h)
      = ctxRow (fun v => val_main_v6 (F := Ideal) x0 x2 (ix3 b s v)) (fun v h => x3 (ix2 v h)) (fun l h => x1 (ix3 b l h)) h := by
  rw [val_main_v20_apply]
  unfold ctxRow
  have hs : row x0 x1 x2 x3 b s
      = score (proj (fun v => val_main_v6 (F := Ideal) x0 x2 (ix3 b s v)) (fun v h => x3 (ix2 v h))) (fun l h => x1 (ix3 b l h)) := by
    funext l
    show val_main_v8 (F := Ideal) x0 x1 x2 x3 (ix3 b s l) = _
    rw [v8_at]
    exact congrArg (fun q => score q (fun l h => x1 (ix3 b l h)) l) (funext fun h => v7_at x0 x2 x3 b s h)
  refine Finset.sum_congr rfl fun k _ => ?_
  have el : lidx_main_v20 (ix3 b s h) k = ix3 b s k := funext fun a => Fin.ext (by
    match a with
    | ⟨0, _⟩ => rfl
    | ⟨1, _⟩ => rfl
    | ⟨2, _⟩ => rfl)
  have er : ridx_main_v20 (ix3 b s h) k = ix3 b k h := funext fun a => Fin.ext (by
    match a with
    | ⟨0, _⟩ => rfl
    | ⟨1, _⟩ => rfl
    | ⟨2, _⟩ => rfl)
  rw [el, er, v19_at, hs]

/-- Columns 0..511 of the joined result are the gathered rows. -/
theorem v21_left (b : Fin 64) (s : Fin 128) (j : Fin 1536) (hj : j.val < 512) :
    val_main_v21 (F := Ideal) x0 x1 x2 x3 (ix3 b s j) = val_main_v6 (F := Ideal) x0 x2 (ix3 b s ⟨j.val, hj⟩) := by
  unfold val_main_v21
  refine concatenate_pair_apply_left (2 : Fin S64x128x1536.rank) _ _ concatenates_S64x128x512_S64x128x1024_S64x128x1536_d2
    (ix3 b s j) rfl (ix3 b s ⟨j.val, hj⟩) (fun a => ?_)
  match a with
  | ⟨0, _⟩ => rfl
  | ⟨1, _⟩ => rfl
  | ⟨2, _⟩ => rfl

/-- Columns 512..1535 are the context rows. -/
theorem v21_right (b : Fin 64) (s : Fin 128) (j : Fin 1536) (hj : 512 ≤ j.val) :
    val_main_v21 (F := Ideal) x0 x1 x2 x3 (ix3 b s j)
      = ctxRow (fun v => val_main_v6 (F := Ideal) x0 x2 (ix3 b s v)) (fun v h => x3 (ix2 v h)) (fun l h => x1 (ix3 b l h))
          ⟨j.val - 512, by have := j.isLt; omega⟩ := by
  rw [← v20_at]
  unfold val_main_v21
  refine concatenate_pair_apply_right (2 : Fin S64x128x1536.rank) _ _ concatenates_S64x128x512_S64x128x1024_S64x128x1536_d2
    (ix3 b s j) rfl rfl (ix3 b s ⟨j.val - 512, by have := j.isLt; omega⟩) (fun a ha => ?_) ?_
  · match a with
    | ⟨0, _⟩ => rfl
    | ⟨1, _⟩ => rfl
    | ⟨2, _⟩ => exact absurd rfl ha
  · show (j.val - 512) + 512 = j.val
    omega

end Cert.Attn.Ref

end
-- ==== Proof.Bridge.lean ====
/-
  The bridge between the two programs, at one coordinate.

  The kernel's grid point `T` works on batches `4T .. 4T+3`. If the three blocks the body loads are those batches of
  the gathered rows, the whole projection, and those batches of the keys/values, then what the body leaves at
  `(p, s, j)` of its output block is the reference's joined result at `(4T + p, s, j)`: on columns below 512 both are
  the gathered row's entry; from 512 on both are the context row of `Spec` of the same three arguments — attention
  is computed batch by batch, so cutting the batch axis into blocks changes nothing.
-/
import proofs.«145224_j84731114815752_2_alg».proof.Proof.KerPay
import proofs.«145224_j84731114815752_2_alg».proof.Proof.KerBlock
import proofs.«145224_j84731114815752_2_alg».proof.Proof.RefRead

noncomputable section

namespace Cert.Attn.Bridge

open Idealize.ShloMosaic Idealize.ShloMosaic.ValueIdx Cert.Attn

/-- Batch `4T + p`. -/
abbrev bat (T : Fin 16) (p : Fin 4) : Fin 64 := ⟨4 * T.val + p.val, by have := T.isLt; have := p.isLt; omega⟩

theorem block_eq_joined
    (a0 : (⟨Cert.ReferenceIdeal.S64x128, .i32⟩ : BufTy).Contents (Elt Ideal)) (a1 : (⟨Cert.ReferenceIdeal.S64x512x1024, .f32⟩ : BufTy).Contents (Elt Ideal))
    (a2 : (⟨Cert.ReferenceIdeal.S20001x512, .f32⟩ : BufTy).Contents (Elt Ideal)) (a3 : (⟨Cert.ReferenceIdeal.S512x1024, .f32⟩ : BufTy).Contents (Elt Ideal))
    (T : Fin 16)
    (X0 : FVec Ideal Cert.KernelIdeal.S4x128x512 .f32) (X1 : FVec Ideal Cert.KernelIdeal.S512x1024 .bf16)
    (X2 : FVec Ideal Cert.KernelIdeal.S4x512x1024 .f32)
    (h0 : ∀ (p : Fin 4) (s : Fin 128) (v : Fin 512), X0 (ix3 p s v) = Cert.ReferenceIdeal.Read.val_main_v6 (F := Ideal) a0 a2 (ix3 (bat T p) s v))
    (h1 : ∀ (v : Fin 512) (h : Fin 1024), X1 (ix2 v h) = a3 (ix2 v h))
    (h2 : ∀ (p : Fin 4) (l : Fin 512) (h : Fin 1024), X2 (ix3 p l h) = a1 (ix3 (bat T p) l h))
    (p : Fin 4) (s : Fin 128) (j : Fin 1536) :
    Block.blockOut (F := Ideal) X0 X1 X2 (ix3 p s j)
      = Cert.ReferenceIdeal.Read.val_main_v21 (F := Ideal) a0 a1 a2 a3 (ix3 (bat T p) s j) := by
  by_cases h : j.val < 512
  · rw [Ref.v21_left a0 a1 a2 a3 (bat T p) s j h]
    refine (Block.blockOut_left (F := Ideal) X0 X1 X2 (ix3 p s j) h).trans ?_
    refine (Ker.pay1_apply X0 _).trans ?_
    exact h0 p s ⟨j.val, h⟩
  · have h' : 512 ≤ j.val := by omega
    rw [Ref.v21_right a0 a1 a2 a3 (bat T p) s j h']
    refine (Block.blockOut_right (F := Ideal) X0 X1 X2 (ix3 p s j) h).trans ?_
    refine (Ker.pay2_apply X0 X1 X2 p s ⟨j.val - 512, by have := j.isLt; omega⟩).trans ?_
    have e0 : (fun v => X0 (ix3 p s v)) = fun v => Cert.ReferenceIdeal.Read.val_main_v6 (F := Ideal) a0 a2 (ix3 (bat T p) s v) :=
      funext fun v => h0 p s v
    have e1 : (fun v h => X1 (ix2 v h)) = fun v h => a3 (ix2 v h) := funext fun v => funext fun h => h1 v h
    have e2 : (fun l h => X2 (ix3 p l h)) = fun l h => a1 (ix3 (bat T p) l h) := funext fun l => funext fun h => h2 p l h
    rw [e0, e1, e2]

end Cert.Attn.Bridge

end
-- ==== Proof.KerArray.lean ====
/-
  The kernel's result after the run.

  The pallas_call's grid has 16 points; point `t` reads batches `4t .. 4t+3` of the gathered rows and of the
  keys/values, the whole projection, and writes batches `4t .. 4t+3` of the [64,128,1536] output array. The arrays
  the region finds are what the host lines before it computed: the gathered rows (the same gather of the same
  normalised indices as the reference's), the projection with its float format changed (the identity at the
  extended reals), and the keys/values as launched. By the bridge lemma each point writes back exactly its block of
  the reference's joined array; the sixteen blocks cover the array (row `b` is in block `b / 4`), so after the run the
  output array IS the reference's joined array of the kernel's own arguments. The one host line after the region is
  the same reshape the reference ends with.
-/
import proofs.«145224_j84731114815752_2_alg».proof.Proof.Gen.KernelIdeal.Frame
import proofs.«145224_j84731114815752_2_alg».proof.Proof.Bridge
import Idealize.ShloMosaic.Lib.Pipeline.Value
import Idealize.ShloMosaic.Lib.StableHlo.Run
import Idealize.ShloMosaic.Lib.Tactic

set_option maxRecDepth 16384

noncomputable section

namespace Cert.Attn.Arr

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The reference's joined array [64,128,1536] of the kernel's own arguments. -/
abbrev joined (c : Dev nD) : S64x128x1536.Idx → EReal :=
  Cert.ReferenceIdeal.Read.val_main_v21 (F := Ideal) (m ((c : Thread nD τ).loc main_arg0)) (m ((c : Thread nD τ).loc main_arg1)) (m ((c : Thread nD τ).loc main_arg2)) (m ((c : Thread nD τ).loc main_arg3))

/-! ## The arrays the region finds -/

/-- The gathered rows. -/
theorem V_v6 (c : Dev nD) :
    (V m c main_v6 : S64x128x512.Idx → EReal) = Cert.ReferenceIdeal.Read.val_main_v6 (F := Ideal) (m ((c : Thread nD τ).loc main_arg0)) (m ((c : Thread nD τ).loc main_arg2)) := by
  show StableHlo.after hostOps0 (fun b => m (c, b)) (Proc.devRef .tc main_v6) = _
  after_results <;> rfl

/-- The projection, its float format changed. -/
theorem V_v7 (c : Dev nD) :
    (V m c main_v7 : S512x1024.Idx → EReal) = truncf (F := Ideal) .bf16 (m ((c : Thread nD τ).loc main_arg3)) bitsLt_bf16_f32 := by
  show StableHlo.after hostOps0 (fun b => m (c, b)) (Proc.devRef .tc main_v7) = _
  after_results <;> rfl

/-! ## The blocks -/

/-- The index maps over the grid: the three batched windows move along the batch axis with the point, the projection's
    does not move. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- A grid point as a number below 16. -/
abbrev pt (t : Fin cfg0.N) : Fin 16 := ⟨t.val, lt_of_lt_of_eq t.isLt (show cfg0.N = 16 from N_0)⟩

/-- Point `t`'s block of the gathered rows is batches `4t ..` of them. -/
theorem blk0 (c : Dev nD) (t : Fin cfg0.N) (p : Fin 4) (s : Fin 128) (v : Fin 512) :
    (iblk m c 0 t : FVec Ideal S4x128x512 .f32) (ix3 p s v) = V m c main_v6 (ix3 (Bridge.bat (pt t) p) s v) := by
  obtain ⟨e0, e1, e2, -⟩ := idx_facts t
  unfold iblk
  rw [View.read_apply]
  show V m c main_v6 _ = V m c main_v6 _
  congr 1
  funext a; apply Fin.ext
  match a with
  | ⟨0, _⟩ => show win0_0.index t (0 : Fin 3) * 4 + 1 * p.val = 4 * t.val + p.val; rw [e0]; omega
  | ⟨1, _⟩ => show win0_0.index t (1 : Fin 3) * 128 + 1 * s.val = s.val; rw [e1]; omega
  | ⟨2, _⟩ => show win0_0.index t (2 : Fin 3) * 512 + 1 * v.val = v.val; rw [e2]; omega

/-- Every point's block of the projection is the whole of it. -/
theorem blk1 (c : Dev nD) (t : Fin cfg0.N) (v : Fin 512) (h : Fin 1024) :
    (iblk m c 1 t : FVec Ideal S512x1024 .bf16) (ix2 v h) = V m c main_v7 (ix2 v h) := by
  obtain ⟨-, -, -, e0, e1, -⟩ := idx_facts t
  unfold iblk
  rw [View.read_apply]
  show V m c main_v7 _ = V m c main_v7 _
  congr 1
  funext a; apply Fin.ext
  match a with
  | ⟨0, _⟩ => show win0_1.index t (0 : Fin 2) * 512 + 1 * v.val = v.val; rw [e0]; omega
  | ⟨1, _⟩ => show win0_1.index t (1 : Fin 2) * 1024 + 1 * h.val = h.val; rw [e1]; omega

/-- Point `t`'s block of the keys/values is batches `4t ..` of them. -/
theorem blk2 (c : Dev nD) (t : Fin cfg0.N) (p : Fin 4) (l : Fin 512) (h : Fin 1024) :
    (iblk m c 2 t : FVec Ideal S4x512x1024 .f32) (ix3 p l h) = V m c main_arg1 (ix3 (Bridge.bat (pt t) p) l h) := by
  obtain ⟨-, -, -, -, -, e0, e1, e2, -⟩ := idx_facts t
  unfold iblk
  rw [View.read_apply]
  show V m c main_arg1 _ = V m c main_arg1 _
  congr 1
  funext a; apply Fin.ext
  match a with
  | ⟨0, _⟩ => show win0_2.index t (0 : Fin 3) * 4 + 1 * p.val = 4 * t.val + p.val; rw [e0]; omega
  | ⟨1, _⟩ => show win0_2.index t (1 : Fin 3) * 512 + 1 * l.val = l.val; rw [e1]; omega
  | ⟨2, _⟩ => show win0_2.index t (2 : Fin 3) * 1024 + 1 * h.val = h.val; rw [e2]; omega

/-! ## What each point writes back, and the array after the run -/

/-- Point `t` writes back block `t` of the reference's joined array. -/
theorem flushed_eq (c : Dev nD) (t : Fin cfg0.N) :
    (dats m 0 c).flushed 3 t = ((cfg0.win 3).blk t).view.read (Elt Ideal) (joined m c) := by
  show (cfg0.win 3).cut (grid0.coords t) ((dats m 0 c).after 3 t) = _
  rw [after0_3]
  have ho : outsAt0 m c t = Block.blockOut (F := Ideal) (iblk m c 0 t) (iblk m c 1 t) (iblk m c 2 t) :=
    Block.out_eq c (grid0.coords t) (ms0_0 t) (hs0_0 t) (ms0_1 t) (hs0_1 t) (ms0_2 t) (hs0_2 t) (ms0_3 t) (hs0_3 t)
      (iblk m c 0 t) (iblk m c 1 t) (iblk m c 2 t)
  rw [ho]
  obtain ⟨-, -, -, -, -, -, -, -, e0, e1, e2⟩ := idx_facts t
  funext y
  obtain ⟨p, s, j, rfl⟩ : ∃ (p : Fin 4) (s : Fin 128) (j : Fin 1536), y = ix3 p s j := ⟨y 0, y 1, y 2, eq_ix3 y⟩
  show Block.blockOut (F := Ideal) (iblk m c 0 t) (iblk m c 1 t) (iblk m c 2 t) (ix3 p s j)
    = joined m c (((cfg0.win 3).blk t).view.emb (ix3 p s j))
  have hemb : ((cfg0.win 3).blk t).view.emb (ix3 p s j) = ix3 (Bridge.bat (pt t) p) s j := by
    funext a; apply Fin.ext
    match a with
    | ⟨0, _⟩ => show win0_3.index t (0 : Fin 3) * 4 + 1 * p.val = 4 * t.val + p.val; rw [e0]; omega
    | ⟨1, _⟩ => show win0_3.index t (1 : Fin 3) * 128 + 1 * s.val = s.val; rw [e1]; omega
    | ⟨2, _⟩ => show win0_3.index t (2 : Fin 3) * 1536 + 1 * j.val = j.val; rw [e2]; omega
  rw [hemb]
  exact Bridge.block_eq_joined (m ((c : Thread nD τ).loc main_arg0)) (m ((c : Thread nD τ).loc main_arg1)) (m ((c : Thread nD τ).loc main_arg2)) (m ((c : Thread nD τ).loc main_arg3)) (pt t) (iblk m c 0 t) (iblk m c 1 t) (iblk m c 2 t)
    (fun p s v => (blk0 m c t p s v).trans (congrFun (V_v6 m c) _))
    (fun v h => (blk1 m c t v h).trans (congrFun (V_v7 m c) _))
    (fun p l h => (blk2 m c t p l h).trans (congrFun (V_main_arg1 m c) _))
    p s j

/-- An index of the output array is in point `t`'s block iff each coordinate is in the block's range on its axis. -/
theorem mem_blk (t : Fin cfg0.N) (i : S64x128x1536.Idx) :
    i ∈ ((cfg0.win 3).blk t).view.set ↔ ∀ a : Fin 3, win0_3.index t a * S4x128x1536.size a ≤ (i a).val
      ∧ (i a).val < win0_3.index t a * S4x128x1536.size a + S4x128x1536.size a := by
  show i ∈ ((View.whole main_v8).slice (win0_3.rect t)).set ↔ _
  rw [View.set_slice_whole, Rect.mem_set_unit]
  exact Iff.rfl

/-- Batch `b` is written back by point `b / 4`. -/
theorem cover (i : S64x128x1536.Idx) :
    ∃ t : Fin cfg0.N, (cfg0.win 3).flush t = true ∧ i ∈ ((cfg0.win 3).blk t).view.set := by
  have hi0 : (i 0).val < 64 := (i 0).isLt
  have hi1 : (i 1).val < 128 := (i 1).isLt
  have hi2 : (i 2).val < 1536 := (i 2).isLt
  have hN : cfg0.N = 16 := N_0
  have hlt : (i 0).val / 4 < cfg0.N := by rw [hN]; omega
  obtain ⟨-, -, -, -, -, -, -, -, e0, e1, e2⟩ := idx_facts ⟨(i 0).val / 4, hlt⟩
  refine ⟨⟨(i 0).val / 4, hlt⟩, flush0_3 _, ?_⟩
  rw [mem_blk]
  intro a
  match a with
  | ⟨0, _⟩ =>
    show win0_3.index ⟨(i 0).val / 4, hlt⟩ (0 : Fin 3) * 4 ≤ (i 0).val ∧ (i 0).val < win0_3.index ⟨(i 0).val / 4, hlt⟩ (0 : Fin 3) * 4 + 4
    rw [e0]
    show (i 0).val / 4 * 4 ≤ (i 0).val ∧ (i 0).val < (i 0).val / 4 * 4 + 4
    omega
  | ⟨1, _⟩ =>
    show win0_3.index ⟨(i 0).val / 4, hlt⟩ (1 : Fin 3) * 128 ≤ (i 1).val ∧ (i 1).val < win0_3.index ⟨(i 0).val / 4, hlt⟩ (1 : Fin 3) * 128 + 128
    rw [e1]
    omega
  | ⟨2, _⟩ =>
    show win0_3.index ⟨(i 0).val / 4, hlt⟩ (2 : Fin 3) * 1536 ≤ (i 2).val ∧ (i 2).val < win0_3.index ⟨(i 0).val / 4, hlt⟩ (2 : Fin 3) * 1536 + 1536
    rw [e2]
    omega

/-- After the run the output array is the reference's joined array. -/
theorem final (c : Dev nD) : (dats m 0 c).arrAt 3 cfg0.N = joined m c :=
  (dats m 0 c).arrAt_eq_of_cover 3 (joined m c) (fun t _ => flushed_eq m c t) (fun i => cover i)

end Cert.Attn.Arr

end
-- ==== Proof.KerRun.lean ====
/-
  The kernel's run, read: its result is the reference's result of the kernel's own arguments.

  After the region the output array holds the reference's joined array; the one host line after the region
  reshapes it [64,128,1536] → [64,196608], exactly the reference's last line, so the two results are the same reshape
  of the same array. The argument arrays end as launched.
-/
import proofs.«145224_j84731114815752_2_alg».proof.Proof.KerArray

set_option maxRecDepth 16384

noncomputable section

namespace Cert.Attn.Run

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The reference's result [64,196608] of the kernel's own arguments. -/
abbrev result (c : Dev nD) : S64x196608.Idx → EReal :=
  Cert.ReferenceIdeal.Read.val_main_v22 (F := Ideal) (m ((c : Thread nD τ).loc main_arg0)) (m ((c : Thread nD τ).loc main_arg1)) (m ((c : Thread nD τ).loc main_arg2)) (m ((c : Thread nD τ).loc main_arg3))

/-- The host line after the region leaves the reshape of the output array. -/
theorem tail_v9 (c : Dev nD) :
    Pipeline.afterTail₀ cfgs (dats m) 0 (V0 m) [hostOps1] c main_v9 = result m c := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8)
      = Arr.joined m c :=
    (Pipeline.withArrays_arr spec0 launch0.win.arr_inj c _ _ 3).trans (Arr.final m c)
  rw [hw]
  rfl

/-- From any memory with zero counters every weakly fair execution of the kernel's program terminates with its result
    at the reference's result term of its own arguments, and the arguments as launched. -/
theorem run : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v9 (Pipeline.mem_restRefs_of main_v9 (by decide) (by decide))).trans (tail_v9 m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Attn.Run

end
-- ==== Proof.lean ====
/-
  A cross-attention kernel against its jnp reference, over the extended reals.

  Both programs gather embedding rows `sk = table[skills]` (the same gather of the same normalised indices), project
  them, `q = sk · W`, score them against the keys, `scores = q · descᵀ`, take the softmax over the keys, average the
  values with it, `ctx = softmax(scores) · desc`, and return `[sk | ctx]` reshaped to [64, 196608].
  The kernel does this on a grid of 16 points, four batches at a time, flattening the four batches' rows for the
  projection; it changes float formats around two of its three products, which at the extended reals is the identity;
  its products into zero accumulators are the reference's `dot_general`s, sums over one contracted axis; its row
  maximum and row sum are the reference's reduces over the same axis (the reference also takes the maximum with −∞
  once more, the identity). Attention is computed batch by batch and row by row, so at every coordinate the two
  results are the same function (`Spec`'s context row) of the same arguments: no algebraic law beyond re-indexing
  finite sums is used, and finiteness of the inputs is not needed.

  The three frames are the generated frame certificates (the reference's is its generated run with the result
  dropped); the idealization rewrote nothing, so `preserves` is `True`; `algebraic` puts the kernel's run, read in
  `KerRun`, beside the reference's generated run.
-/
import proofs.«145224_j84731114815752_2_alg».proof.Defs
import proofs.«145224_j84731114815752_2_alg».proof.Proof.Gen.Kernel
import proofs.«145224_j84731114815752_2_alg».proof.Proof.Gen.Kernel.Skeleton
import proofs.«145224_j84731114815752_2_alg».proof.Proof.Gen.Kernel.Launch
import proofs.«145224_j84731114815752_2_alg».proof.Proof.Gen.Kernel.Points
import proofs.«145224_j84731114815752_2_alg».proof.Proof.Gen.Kernel.Frame
import proofs.«145224_j84731114815752_2_alg».proof.Proof.Gen.KernelIdeal
import proofs.«145224_j84731114815752_2_alg».proof.Proof.Gen.KernelIdeal.Skeleton
import proofs.«145224_j84731114815752_2_alg».proof.Proof.Gen.KernelIdeal.Launch
import proofs.«145224_j84731114815752_2_alg».proof.Proof.Gen.KernelIdeal.Points
import proofs.«145224_j84731114815752_2_alg».proof.Proof.Gen.KernelIdeal.Frame
import proofs.«145224_j84731114815752_2_alg».proof.Proof.Gen.ReferenceIdeal
import proofs.«145224_j84731114815752_2_alg».proof.Proof.Gen.Pre_finite_inputs
import proofs.«145224_j84731114815752_2_alg».proof.Proof.Gen.ReferenceIdeal.Run
import proofs.«145224_j84731114815752_2_alg».proof.Proof.Gen.ReferenceIdeal.Read
import proofs.«145224_j84731114815752_2_alg».proof.Proof.KerRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the reference's result term of those arguments. -/
theorem algebraic : Cert.algebraic_KernelIdeal_ReferenceIdeal := by
  intro m ρ m' ρ' _ hagree
  refine ⟨fun c => Cert.Attn.Run.result m c, Cert.Attn.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
